-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S256 .f32) (main_arg9 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) (main_arg8 : FVec F S256 .f32) (main_arg9 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x128 : Shape := ⟨2, ![1, 128]⟩
abbrev S2000 : Shape := ⟨1, ![2000]⟩
abbrev S2000x1 : Shape := ⟨2, ![2000, 1]⟩
abbrev S1x256 : Shape := ⟨2, ![1, 256]⟩

abbrev nBuf : Space → Nat
  | .hbm => 29
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256, .f32⟩
  | .hbm, ⟨9, _⟩ => ⟨S256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x1, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S128x128, .f32⟩
  | .hbm, ⟨28, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S256, .f32⟩
  | .local _ .vmem, ⟨9, _⟩ => ⟨S256, .f32⟩
  | .local _ .vmem, ⟨10, _⟩ => ⟨S2000x256, .f32⟩
  | .local _ .vmem, ⟨11, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S2000x128_S2000x128_S2000x256_d1 : Shape.Concatenates [S2000x128, S2000x128] S2000x256 1
  reduces_S2000x256_S2000 : S2000x256.Reduces [1] S2000
  shapeCasts_S2000_S2000x1 : S2000.ShapeCasts S2000x1
  broadcasts_S2000x1_S2000x256 : S2000x1.Broadcasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256, .f32⟩
  | .hbm, ⟨9, _⟩ => ⟨S256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x1, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000, .f32⟩
  | .hbm, ⟨51, _⟩ => ⟨S50000x1, .f32⟩
  | .hbm, ⟨52, _⟩ => ⟨S_, .f32⟩
  | .hbm, ⟨53, _⟩ => ⟨S50000x1, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowSpec.lean ====
/-
  One row of a graph layer with layer normalisation, as a function on the extended reals.

  A node's output row depends only on that node's own feature row `hr` and on its aggregated-neighbour row `sr`
  (128 entries each). Its 256 activations are, in columns 0..127, the self part `max (hr · Ws + bs) 0` and, in
  columns 128..255, the neighbour part `max (sr · Wn + bn) 0`; the weight matrices are the already transposed
  ones, so `Ws (k, j)` multiplies entry `k` of the row towards output column `j`. The activated row `x` is then
  normalised: its mean `μ = (Σ x) / 256` is subtracted, the centred row is scaled by
  `(Σ (x − μ)² / 256 + ε)^(-1/2)`, and column `q` is multiplied by the gain `g q` and shifted by the bias `b q`.
  The numbers 256, ε and 0 stay the f32 words both programs print: they are the same words on both sides and
  are never evaluated here.
-/
import Idealize.ShloMosaic.PureOps.Ideal
import Idealize.ShloMosaic.Lib.ValueIdx

noncomputable section

open scoped BigOperators

namespace Cert.GraphLayer

open Idealize.ShloMosaic Idealize.ShloMosaic.ValueIdx

/-- The word of `0.0`, the floor of the activation. -/
abbrev zeroW : EReal := Ideal.ofBits .f32 0x00000000#32
/-- The word of `256.0`, the row length the sums are divided by. -/
abbrev lenW : EReal := Ideal.ofBits .f32 0x43800000#32
/-- The word of the variance offset ε. -/
abbrev epsW : EReal := Ideal.ofBits .f32 0x3727C5AC#32

/-- The self part of a row at column `j`: `max (Σ_k hr k · Ws (k, j) + bs j) 0`. The neighbour part is the same
    function of the neighbour row and the neighbour weights. -/
def part (r : Fin 128 → EReal) (W : FVec Ideal ⟨2, ![128, 128]⟩ .f32) (b : FVec Ideal ⟨1, ![128]⟩ .f32) (j : Fin 128) : EReal :=
  max ((∑ k : Fin 128, r k * W (ix2 k j)) + b (ix1 j)) zeroW

/-- The activated row of 256 entries: the self part in columns below 128, the neighbour part from 128 on. -/
def act (hr sr : Fin 128 → EReal) (Ws Wn : FVec Ideal ⟨2, ![128, 128]⟩ .f32) (bs bn : FVec Ideal ⟨1, ![128]⟩ .f32)
    (q : Fin 256) : EReal :=
  if hq : q.val < 128 then part hr Ws bs ⟨q.val, hq⟩
  else part sr Wn bn ⟨q.val - 128, by have := q.isLt; omega⟩

/-- The mean of a row of 256 entries. -/
def mean (x : Fin 256 → EReal) : EReal := Ideal.div (∑ q : Fin 256, x q) lenW

/-- The row less its mean. -/
def ctr (x : Fin 256 → EReal) (q : Fin 256) : EReal := x q - mean x

/-- The normalising factor of a row: `(Σ (x − μ)² / 256 + ε)^(-1/2)`. -/
def scale (x : Fin 256 → EReal) : EReal :=
  Ideal.rsqrt (Ideal.div (∑ q : Fin 256, ctr x q * ctr x q) lenW + epsW)

/-- The normalised row with gain and bias, at column `q`. -/
def rowOut (x : Fin 256 → EReal) (g b : FVec Ideal ⟨1, ![256]⟩ .f32) (q : Fin 256) : EReal :=
  ctr x q * scale x * g (ix1 q) + b (ix1 q)

/-- The whole layer: output entry `(r, q)` from row `r` of the features `h` and of the aggregated neighbours `s`. -/
def G (h s : FVec Ideal ⟨2, ![50000, 128]⟩ .f32) (Ws Wn : FVec Ideal ⟨2, ![128, 128]⟩ .f32)
    (bs bn : FVec Ideal ⟨1, ![128]⟩ .f32) (g b : FVec Ideal ⟨1, ![256]⟩ .f32) :
    FVec Ideal ⟨2, ![50000, 256]⟩ .f32 := fun i =>
  rowOut (act (fun k => h (ix2 (⟨(i 0).val, idx2_lt0 i⟩ : Fin 50000) k)) (fun k => s (ix2 (⟨(i 0).val, idx2_lt0 i⟩ : Fin 50000) k)) Ws Wn bs bn)
    g b ⟨(i 1).val, idx2_lt1 i⟩

/-- `G` at an index written by coordinates. -/
theorem G_apply (h s : FVec Ideal ⟨2, ![50000, 128]⟩ .f32) (Ws Wn : FVec Ideal ⟨2, ![128, 128]⟩ .f32)
    (bs bn : FVec Ideal ⟨1, ![128]⟩ .f32) (g b : FVec Ideal ⟨1, ![256]⟩ .f32) (r : Fin 50000) (q : Fin 256) :
    G h s Ws Wn bs bn g b (ix2 r q)
      = rowOut (act (fun k => h (ix2 r k)) (fun k => s (ix2 r k)) Ws Wn bs bn) g b q := rfl

end Cert.GraphLayer

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibConcatRead.lean ====
/-
  A two-operand `concatenate` read at an index, in the three arrangements a flat or two-row array is assembled in.

  Laying two arrays end to end along an axis, the result at a position below the first array's extent on that axis
  is the first array there; at a position at or past it, the second array at the position less that extent. The
  other coordinates are unchanged. The three forms: two flat arrays `[A] ++ [B]`; two single-row matrices stacked
  into a two-row matrix `[1, M] ++ [1, M]` along the rows; two matrices of equally many rows joined along the columns
  `[R, A] ++ [R, B]`. In each the result's extent on the joined axis is a variable `T`; that it is the sum of the two
  operands' extents is part of the hypothesis `h`.
-/
import Idealize.ShloMosaic.Lib.ValueIdx
import Idealize.ShloMosaic.Lib.Pipeline.Value

noncomputable section

namespace Cert.LibConcatRead

open Idealize.ShloMosaic Idealize.ShloMosaic.ValueIdx

variable {α : Type}

/-! ## Two flat arrays: `[A] ++ [B] → [T]` -/

/-- The result's extent is the sum of the two operands' extents. -/
theorem concat_vec_total {A B T : Nat} (h : Shape.Concatenates [⟨1, ![A]⟩, ⟨1, ![B]⟩] ⟨1, ![T]⟩ 0) : A + B = T := by
  have e : A + (B + 0) = T := h.2.2
  omega

/-- Below the first array's extent the concatenation is the first array. -/
theorem concat_vec_apply_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : e.val < A) :
    concatenate ⟨1, ![T]⟩ 0 [⟨⟨1, ![A]⟩, x₁⟩, ⟨⟨1, ![B]⟩, x₂⟩] h (ix1 e) = x₁ (ix1 ⟨e.val, he⟩) := by
  refine concatenate_pair_apply_left 0 x₁ x₂ h (ix1 e) rfl (ix1 ⟨e.val, he⟩) ?_
  intro b
  match b with
  | ⟨0, _⟩ => rfl

/-- At or past the first array's extent the concatenation is the second array, that extent less. -/
theorem concat_vec_apply_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : A ≤ e.val) (hB : e.val - A < B) :
    concatenate ⟨1, ![T]⟩ 0 [⟨⟨1, ![A]⟩, x₁⟩, ⟨⟨1, ![B]⟩, x₂⟩] h (ix1 e) = x₂ (ix1 ⟨e.val - A, hB⟩) := by
  refine concatenate_pair_apply_right 0 x₁ x₂ h (ix1 e) rfl rfl (ix1 ⟨e.val - A, hB⟩) ?_ ?_
  · intro b hb
    match b with
    | ⟨0, _⟩ => exact absurd rfl hb
  · show e.val - A + A = e.val
    omega

/-- The concatenation of two flat arrays at `e`: the first at `e` when `e < A`, else the second at `e − A`. -/
theorem concat_vec_apply {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) :
    concatenate ⟨1, ![T]⟩ 0 [⟨⟨1, ![A]⟩, x₁⟩, ⟨⟨1, ![B]⟩, x₂⟩] h (ix1 e)
      = if he : e.val < A then x₁ (ix1 ⟨e.val, he⟩)
        else x₂ (ix1 ⟨e.val - A, by have := concat_vec_total h; have := e.isLt; omega⟩) := by
  by_cases he : e.val < A
  · rw [dif_pos he]; exact concat_vec_apply_left x₁ x₂ h e he
  · rw [dif_neg he]; exact concat_vec_apply_right x₁ x₂ h e (by omega) _

/-! ## Two single-row matrices stacked: `[1, M] ++ [1, M] → [2, M]` along the rows -/

/-- Row `0` of the stack is the first matrix's only row. -/
theorem concat_rows_apply_zero {M : Nat} (x₁ x₂ : (⟨2, ![1, M]⟩ : Shape).Idx → α)
    (h : Shape.Concatenates [⟨2, ![1, M]⟩, ⟨2, ![1, M]⟩] ⟨2, ![2, M]⟩ 0) (m : Fin M) :
    concatenate ⟨2, ![2, M]⟩ 0 [⟨⟨2, ![1, M]⟩, x₁⟩, ⟨⟨2, ![1, M]⟩, x₂⟩] h (ix2 0 m) = x₁ (ix2 0 m) := by
  refine concatenate_pair_apply_left 0 x₁ x₂ h (ix2 0 m) rfl (ix2 0 m) ?_
  intro b
  match b with
  | ⟨0, _⟩ => rfl
  | ⟨1, _⟩ => rfl

/-- Row `1` of the stack is the second matrix's only row. -/
theorem concat_rows_apply_one {M : Nat} (x₁ x₂ : (⟨2, ![1, M]⟩ : Shape).Idx → α)
    (h : Shape.Concatenates [⟨2, ![1, M]⟩, ⟨2, ![1, M]⟩] ⟨2, ![2, M]⟩ 0) (m : Fin M) :
    concatenate ⟨2, ![2, M]⟩ 0 [⟨⟨2, ![1, M]⟩, x₁⟩, ⟨⟨2, ![1, M]⟩, x₂⟩] h (ix2 1 m) = x₂ (ix2 0 m) := by
  refine concatenate_pair_apply_right 0 x₁ x₂ h (ix2 1 m) rfl rfl (ix2 0 m) ?_ ?_
  · intro b hb
    match b with
    | ⟨0, _⟩ => exact absurd rfl hb
    | ⟨1, _⟩ => rfl
  · rfl

/-- The stack at `(r, m)`: the first matrix at `(0, m)` when `r = 0`, the second at `(0, m)` when `r = 1`. -/
theorem concat_rows_apply {M : Nat} (x₁ x₂ : (⟨2, ![1, M]⟩ : Shape).Idx → α)
    (h : Shape.Concatenates [⟨2, ![1, M]⟩, ⟨2, ![1, M]⟩] ⟨2, ![2, M]⟩ 0) (r : Fin 2) (m : Fin M) :
    concatenate ⟨2, ![2, M]⟩ 0 [⟨⟨2, ![1, M]⟩, x₁⟩, ⟨⟨2, ![1, M]⟩, x₂⟩] h (ix2 r m)
      = if r = 0 then x₁ (ix2 0 m) else x₂ (ix2 0 m) := by
  match r with
  | ⟨0, _⟩ => exact concat_rows_apply_zero x₁ x₂ h m
  | ⟨1, _⟩ => exact concat_rows_apply_one x₁ x₂ h m

/-! ## Two matrices joined along the columns: `[R, A] ++ [R, B] → [R, T]` -/

/-- The result's column extent is the sum of the two operands' column extents. -/
theorem concat_cols_total {R A B T : Nat} (h : Shape.Concatenates [⟨2, ![R, A]⟩, ⟨2, ![R, B]⟩] ⟨2, ![R, T]⟩ 1) :
    A + B = T := by
  have e : A + (B + 0) = T := h.2.2
  omega

/-- In a column below the first matrix's column extent the join is the first matrix. -/
theorem concat_cols_apply_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) (he : e.val < A) :
    concatenate ⟨2, ![R, T]⟩ 1 [⟨⟨2, ![R, A]⟩, x₁⟩, ⟨⟨2, ![R, B]⟩, x₂⟩] h (ix2 r e) = x₁ (ix2 r ⟨e.val, he⟩) := by
  refine concatenate_pair_apply_left 1 x₁ x₂ h (ix2 r e) rfl (ix2 r ⟨e.val, he⟩) ?_
  intro b
  match b with
  | ⟨0, _⟩ => rfl
  | ⟨1, _⟩ => rfl

/-- In a column at or past the first matrix's column extent the join is the second matrix, that extent less. -/
theorem concat_cols_apply_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) (he : A ≤ e.val)
    (hB : e.val - A < B) :
    concatenate ⟨2, ![R, T]⟩ 1 [⟨⟨2, ![R, A]⟩, x₁⟩, ⟨⟨2, ![R, B]⟩, x₂⟩] h (ix2 r e) = x₂ (ix2 r ⟨e.val - A, hB⟩) := by
  refine concatenate_pair_apply_right 1 x₁ x₂ h (ix2 r e) rfl rfl (ix2 r ⟨e.val - A, hB⟩) ?_ ?_
  · intro b hb
    match b with
    | ⟨0, _⟩ => rfl
    | ⟨1, _⟩ => exact absurd rfl hb
  · show e.val - A + A = e.val
    omega

/-- The join at `(r, e)`: the first matrix at `(r, e)` when `e < A`, else the second at `(r, e − A)`. -/
theorem concat_cols_apply {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) :
    concatenate ⟨2, ![R, T]⟩ 1 [⟨⟨2, ![R, A]⟩, x₁⟩, ⟨⟨2, ![R, B]⟩, x₂⟩] h (ix2 r e)
      = if he : e.val < A then x₁ (ix2 r ⟨e.val, he⟩)
        else x₂ (ix2 r ⟨e.val - A, by have := concat_cols_total h; have := e.isLt; omega⟩) := by
  by_cases he : e.val < A
  · rw [dif_pos he]; exact concat_cols_apply_left x₁ x₂ h r e he
  · rw [dif_neg he]; exact concat_cols_apply_right x₁ x₂ h r e (by omega) _

end Cert.LibConcatRead

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.KernelRow.lean ====
/-
  The kernel body's centred block, read at an index.

  For one grid point the body holds a block of 2000 feature rows `P0`, the matching block of aggregated-neighbour
  rows `P1`, the two transposed weight matrices `P2`, `P3` and the two bias rows `P4`, `P5`. It forms the two
  products, adds each bias row to every row of its product, floors at zero, joins the two halves along the
  columns, sums each row over its 256 lanes, divides by 256 and subtracts that mean from the row. Read at
  `(p, q)` this is the centred activated row of node `p` of the block at column `q`: it depends on row `p` of `P0` and
  of `P1` only. The lane sum of the squares of the centred block, read at row `p`, is the sum of the squared centred
  entries of that row.
-/
import proofs.«176341_j81131932221713_1_alg».proof.Proof.Gen.KernelIdeal.Skeleton
import proofs.«176341_j81131932221713_1_alg».proof.Proof.RowSpec
import proofs.«176341_j81131932221713_1_alg».proof.Proof.LibLane
import proofs.«176341_j81131932221713_1_alg».proof.Proof.LibIndexRead
import proofs.«176341_j81131932221713_1_alg».proof.Proof.LibConcatRead
import proofs.«176341_j81131932221713_1_alg».proof.Proof.LibPlainDot
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx Cert.GraphLayer

/-- One half of the activated block: the product of a block of rows with a weight matrix, the bias row added to
    every row, floored at zero. -/
def halfBlk (X : FVec Ideal S2000x128 .bf16) (W : FVec Ideal S128x128 .bf16) (b : Vec Ideal S128 .f32) :
    FVec Ideal S2000x128 .f32 :=
  maximumf (addf (matmul dot_S2000x128_S128x128_S2000x128_1_0_0_1_n_n none X W (constant S2000x128 .f32 0x00000000#32))
      (broadcastTo S2000x128 (shapeCast S1x128 b shapeCasts_S128_S1x128) broadcasts_S1x128_S2000x128))
    (broadcast S2000x128 (Scalar.ofBits .f32 0x00000000#32))

/-- A half at `(p, j)` is the part of row `p` at column `j`. -/
theorem halfBlk_apply (X : FVec Ideal S2000x128 .bf16) (W : FVec Ideal S128x128 .bf16) (b : Vec Ideal S128 .f32)
    (p : Fin 2000) (j : Fin 128) :
    halfBlk X W b (ix2 p j) = part (fun k => X (ix2 p k)) W b j := by
  show max (matmul dot_S2000x128_S128x128_S2000x128_1_0_0_1_n_n none X W (constant S2000x128 .f32 0x00000000#32) (ix2 p j)
      + broadcastTo S2000x128 (shapeCast S1x128 b shapeCasts_S128_S1x128) broadcasts_S1x128_S2000x128 (ix2 p j))
      (Ideal.ofBits .f32 0x00000000#32) = max ((∑ k : Fin 128, X (ix2 p k) * W (ix2 k j)) + b (ix1 j)) zeroW
  rw [PlainDot.matmul_plain dot_S2000x128_S128x128_S2000x128_1_0_0_1_n_n rfl none X W p j, broadcastTo_1b_ab_apply,
    shapeCast_a_1a_apply]

/-- The activated block: the self half and the neighbour half joined along the columns. -/
def actBlk (P0 P1 : Vec Ideal S2000x128 .f32) (P2 P3 : Vec Ideal S128x128 .f32) (P4 P5 : Vec Ideal S128 .f32) :
    FVec Ideal S2000x256 .f32 :=
  concatenate S2000x256 1
    [⟨S2000x128, halfBlk (truncf .bf16 P0 bitsLt_bf16_f32)
        (truncf .bf16 (shapeCast S128x128 P2 shapeCasts_S128x128_S128x128) bitsLt_bf16_f32) P4⟩,
     ⟨S2000x128, halfBlk (truncf .bf16 (shapeCast S2000x128 P1 shapeCasts_S2000x128_S2000x128) bitsLt_bf16_f32)
        (truncf .bf16 (shapeCast S128x128 P3 shapeCasts_S128x128_S128x128) bitsLt_bf16_f32) P5⟩]
    concatenates_S2000x128_S2000x128_S2000x256_d1

/-- The activated block at `(p, q)` is the activated row of node `p` at column `q`: a change of float format is the
    identity on the extended reals, and a cast to the same shape moves nothing. -/
theorem actBlk_apply (P0 P1 : Vec Ideal S2000x128 .f32) (P2 P3 : Vec Ideal S128x128 .f32) (P4 P5 : Vec Ideal S128 .f32)
    (p : Fin 2000) (q : Fin 256) :
    actBlk P0 P1 P2 P3 P4 P5 (ix2 p q) = act (fun k => P0 (ix2 p k)) (fun k => P1 (ix2 p k)) P2 P3 P4 P5 q := by
  unfold actBlk act
  by_cases hq : q.val < 128
  · rw [dif_pos hq, LibConcatRead.concat_cols_apply_left _ _ _ p q hq, halfBlk_apply, shapeCast_self]
    rfl
  · rw [dif_neg hq, LibConcatRead.concat_cols_apply_right _ _ _ p q (by omega) (by have := q.isLt; omega), halfBlk_apply,
      shapeCast_self, shapeCast_self]
    rfl

/-- The centred block is the activated block less its row means spread over the lanes. -/
theorem pay2_eq (P0 P1 : Vec Ideal S2000x128 .f32) (P2 P3 : Vec Ideal S128x128 .f32) (P4 P5 : Vec Ideal S128 .f32) :
    k0_pay2 P0 P1 P2 P3 P4 P5
      = subf (actBlk P0 P1 P2 P3 P4 P5)
          (broadcastTo S2000x256
            (divf (shapeCast S2000x1
                (multiReduction .add [1] S2000 (actBlk P0 P1 P2 P3 P4 P5) 0x00000000#32 reduces_S2000x256_S2000 (.inl rfl) rfl)
                shapeCasts_S2000_S2000x1)
              (broadcast S2000x1 (Scalar.ofBits .f32 0x43800000#32)))
            broadcasts_S2000x1_S2000x256) := rfl

/-- The centred block at `(p, q)`: the activated row of node `p`, less its mean, at column `q`. -/
theorem pay2_apply (P0 P1 : Vec Ideal S2000x128 .f32) (P2 P3 : Vec Ideal S128x128 .f32) (P4 P5 : Vec Ideal S128 .f32)
    (p : Fin 2000) (q : Fin 256) :
    k0_pay2 P0 P1 P2 P3 P4 P5 (ix2 p q)
      = ctr (act (fun k => P0 (ix2 p k)) (fun k => P1 (ix2 p k)) P2 P3 P4 P5) q := by
  rw [pay2_eq]
  show actBlk P0 P1 P2 P3 P4 P5 (ix2 p q)
      - broadcastTo S2000x256
          (divf (shapeCast S2000x1
              (multiReduction .add [1] S2000 (actBlk P0 P1 P2 P3 P4 P5) 0x00000000#32 reduces_S2000x256_S2000 (.inl rfl) rfl)
              shapeCasts_S2000_S2000x1)
            (broadcast S2000x1 (Scalar.ofBits .f32 0x43800000#32)))
          broadcasts_S2000x1_S2000x256 (ix2 p q) = _
  rw [RowRead.broadcastTo_a1_ab_apply, actBlk_apply]
  show _ - Ideal.div (shapeCast S2000x1
      (multiReduction .add [1] S2000 (actBlk P0 P1 P2 P3 P4 P5) 0x00000000#32 reduces_S2000x256_S2000 (.inl rfl) rfl)
      shapeCasts_S2000_S2000x1 (ix2 p (0 : Fin 1))) (Ideal.ofBits .f32 0x43800000#32) = _
  rw [RowRead.shapeCast_a_a1_apply, LibLane.laneSum_apply]
  unfold ctr mean
  refine congrArg (fun z => _ - Ideal.div z lenW) (Finset.sum_congr rfl fun j _ => ?_)
  exact actBlk_apply P0 P1 P2 P3 P4 P5 p j

/-- The lane sum of the squared centred block at row `p`: the sum of the squared centred entries of node `p`'s row. -/
theorem sq_apply (P0 P1 : Vec Ideal S2000x128 .f32) (P2 P3 : Vec Ideal S128x128 .f32) (P4 P5 : Vec Ideal S128 .f32)
    (p : Fin 2000) :
    multiReduction .add [1] S2000 (mulf (k0_pay2 P0 P1 P2 P3 P4 P5) (k0_pay2 P0 P1 P2 P3 P4 P5)) 0x00000000#32
        reduces_S2000x256_S2000 (.inl rfl) rfl (ix1 p)
      = ∑ q : Fin 256, ctr (act (fun k => P0 (ix2 p k)) (fun k => P1 (ix2 p k)) P2 P3 P4 P5) q
          * ctr (act (fun k => P0 (ix2 p k)) (fun k => P1 (ix2 p k)) P2 P3 P4 P5) q := by
  refine (LibLane.laneSum_apply _ _ _ _ p).trans (Finset.sum_congr rfl fun q _ => ?_)
  show k0_pay2 P0 P1 P2 P3 P4 P5 (ix2 p q) * k0_pay2 P0 P1 P2 P3 P4 P5 (ix2 p q) = _
  rw [pay2_apply]

end Cert.KernelIdeal.RowValue

end
-- ==== Proof.KernelBlocks.lean ====
/-
  From the kernel's blocks to its whole result array.

  Grid point `t` works on rows `2000·t … 2000·t + 1999`: its feature block and its aggregated-neighbour block are those
  rows of the two arrays, the weights, biases, gain and shift are whole arrays at every point, and what it writes
  back is those rows of the result. Since an output row depends only on the same row of the two inputs, what point
  `t` writes back is block `t` of the layer `G` of the arrays as the region finds them; the 25 blocks tile the 50000
  rows, so after the run the result array is `G`.
-/
import proofs.«176341_j81131932221713_1_alg».proof.Proof.Gen.KernelIdeal.Value
import proofs.«176341_j81131932221713_1_alg».proof.Proof.KernelRow
import Idealize.ShloMosaic.Lib.Pipeline.Value

noncomputable section

open scoped BigOperators

namespace Cert.KernelIdeal.RowValue

open Cert.KernelIdeal Cert.KernelIdeal.Gen Cert.KernelIdeal.Value Idealize.ShloMosaic Idealize.ShloMosaic.TcCoe Idealize.SL.Sem
open Idealize.ShloMosaic.ValueIdx Cert.GraphLayer
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The block a point leaves, as the pointwise expression of the centred block, of the lane sum of its square and of the
    gain and shift rows, is at `(p, q)` the normalised row of node `p` at column `q`. -/
theorem E8_apply (P0 P1 : Vec Ideal S2000x128 .f32) (P2 P3 : Vec Ideal S128x128 .f32) (P4 P5 : Vec Ideal S128 .f32)
    (P6 P7 : Vec Ideal S256 .f32) (p : Fin 2000) (q : Fin 256) :
    E8 P0 P1 P2 P3 P4 P5 P6 P7 (ix2 p q)
      = rowOut (act (fun k => P0 (ix2 p k)) (fun k => P1 (ix2 p k)) P2 P3 P4 P5) P6 P7 q := by
  have e0 : ix8_0 (ix2 p q) = ix2 p q := funext fun a => by
    match a with
    | ⟨0, _⟩ => rfl
    | ⟨1, _⟩ => rfl
  have e1 : ix8_1 (ix2 p q) = ix1 p := funext fun a => by
    match a with
    | ⟨0, _⟩ => rfl
  have e2 : ix8_2 (ix2 p q) = ix1 q := funext fun a => by
    match a with
    | ⟨0, _⟩ => rfl
  have e3 : ix8_3 (ix2 p q) = ix1 q := funext fun a => by
    match a with
    | ⟨0, _⟩ => rfl
  show k0_pay2 P0 P1 P2 P3 P4 P5 (ix8_0 (ix2 p q))
        * Ideal.rsqrt (Ideal.div (multiReduction .add [1] S2000 (mulf (k0_pay2 P0 P1 P2 P3 P4 P5) (k0_pay2 P0 P1 P2 P3 P4 P5)) 0x00000000#32
              reduces_S2000x256_S2000 (.inl rfl) rfl (ix8_1 (ix2 p q))) lenW + epsW)
        * P6 (ix8_2 (ix2 p q)) + P7 (ix8_3 (ix2 p q)) = _
  rw [e0, e1, e2, e3, pay2_apply, sq_apply]
  rfl

/-- What the body leaves in the output buffer, from blocks given as variables, at `(p, q)`. The body's operands come
    in the order of the windows: features, neighbours, self weights, self bias, neighbour weights, neighbour bias,
    gain, shift. -/
theorem out_apply (x0 x1 : Vec Ideal S2000x128 .f32) (x2 : Vec Ideal S128x128 .f32) (x3 : Vec Ideal S128 .f32)
    (x4 : Vec Ideal S128x128 .f32) (x5 : Vec Ideal S128 .f32) (x6 x7 : Vec Ideal S256 .f32) (p : Fin 2000) (q : Fin 256) :
    out0_8 x0 x1 x2 x3 x4 x5 x6 x7 (ix2 p q)
      = rowOut (act (fun k => x0 (ix2 p k)) (fun k => x1 (ix2 p k)) x2 x4 x3 x5) x6 x7 q := by
  unfold out0_8
  simp only [View.ld_unit_zero (S := S2000x128) hz2, View.ld_unit_zero (S := S128x128) hz2,
    View.ld_unit_zero (S := S128) hz1, View.ld_unit_zero (S := S256) hz1]
  rw [canon8_eq, E8_apply]

variable (m : (ℓ : Loc nD τ sig) → Buf (Elt Ideal) ℓ) (ρ : Dev nD → PrngReg)

/-- The layer of the arrays as the region finds them: the features and the small vectors as launched, the
    aggregated neighbours and the transposed weights as the host operations before the region left them. -/
abbrev GV (c : Dev nD) : S50000x256.Idx → EReal :=
  G (V m c main_arg0) (V m c main_v12) (V m c main_v13) (V m c main_v14) (V m c main_arg5) (V m c main_arg7)
    (V m c main_arg8) (V m c main_arg9)

/-- The printed index maps, decided over the 25 grid points: the two row-blocked inputs move with the output along
    the rows, every other block index is zero, and the output's row-block index stays below 25. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 1) = 0
    ∧ win0_8.index t (1 : Fin 2) = 0 ∧ win0_8.index t (0 : Fin 2) < 25 :=
  (by decide +kernel : ∀ t : Fin grid0.N, _)

/-- Every row block is some point's. -/
theorem idx_onto : ∀ q0 : Fin 25, ∃ t : Fin cfg0.N, win0_8.index t = ![q0.val, 0] :=
  (by decide +kernel : ∀ q0 : Fin 25, ∃ t : Fin grid0.N, win0_8.index t = ![q0.val, 0])

/-- The bound that puts row `p` of point `t`'s block inside the 50000 rows. -/
theorem row_lt (t : Fin cfg0.N) (p : Fin 2000) : win0_8.index t (0 : Fin 2) * 2000 + p.val < 50000 := by
  obtain ⟨-, -, -, -, -, -, -, -, -, -, -, -, -, f8⟩ := idx_facts t
  have hp := p.isLt
  omega

/-- Window 0's block at point `t`, read off ANY array of the features' shape: row `p` of the block is row
    `index·2000 + p` of the array. -/
theorem rows_read0 (t : Fin cfg0.N) (A : S50000x128.Idx → EReal) (p : Fin 2000) :
    (fun k : Fin 128 => ((cfg0.win 0).blk t).view.read (Elt Ideal) A (ix2 p k))
      = fun k : Fin 128 => A (ix2 (⟨win0_8.index t (0 : Fin 2) * 2000 + p.val, row_lt t p⟩ : Fin 50000) k) := by
  obtain ⟨f0, f0', -⟩ := idx_facts t
  funext k
  show A (((cfg0.win 0).blk t).view.emb (ix2 p k)) = _
  refine congrArg A (funext fun a => Fin.ext ?_)
  have hk := k.isLt
  match a with
  | ⟨0, _⟩ => show win0_0.index t (0 : Fin 2) * 2000 + 1 * p.val = win0_8.index t (0 : Fin 2) * 2000 + p.val; omega
  | ⟨1, _⟩ => show win0_0.index t (1 : Fin 2) * 128 + 1 * k.val = k.val; omega

/-- The same for window 1, the aggregated neighbours' block. -/
theorem rows_read1 (t : Fin cfg0.N) (A : S50000x128.Idx → EReal) (p : Fin 2000) :
    (fun k : Fin 128 => ((cfg0.win 1).blk t).view.read (Elt Ideal) A (ix2 p k))
      = fun k : Fin 128 => A (ix2 (⟨win0_8.index t (0 : Fin 2) * 2000 + p.val, row_lt t p⟩ : Fin 50000) k) := by
  obtain ⟨-, -, f1, f1', -⟩ := idx_facts t
  funext k
  show A (((cfg0.win 1).blk t).view.emb (ix2 p k)) = _
  refine congrArg A (funext fun a => Fin.ext ?_)
  have hk := k.isLt
  match a with
  | ⟨0, _⟩ => show win0_1.index t (0 : Fin 2) * 2000 + 1 * p.val = win0_8.index t (0 : Fin 2) * 2000 + p.val; omega
  | ⟨1, _⟩ => show win0_1.index t (1 : Fin 2) * 128 + 1 * k.val = k.val; omega

/-- The windows whose one block is the whole array read the array itself, at every point. -/
theorem whole_read2 (t : Fin cfg0.N) (A : S128x128.Idx → EReal) : ((cfg0.win 2).blk t).view.read (Elt Ideal) A = A := by
  obtain ⟨-, -, -, -, f2, f2', -⟩ := idx_facts t
  funext y
  show A (((cfg0.win 2).blk t).view.emb y) = A y
  refine congrArg A (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem whole_read3 (t : Fin cfg0.N) (A : S128.Idx → EReal) : ((cfg0.win 3).blk t).view.read (Elt Ideal) A = A := by
  obtain ⟨-, -, -, -, -, -, f3, -⟩ := idx_facts t
  funext y
  show A (((cfg0.win 3).blk t).view.emb y) = A y
  refine congrArg A (funext fun a => Fin.ext ?_)
  match a with
  | ⟨0, _⟩ => show win0_3.index t (0 : Fin 1) * 128 + 1 * (y 0).val = (y 0).val; omega

theorem whole_read4 (t : Fin cfg0.N) (A : S128x128.Idx → EReal) : ((cfg0.win 4).blk t).view.read (Elt Ideal) A = A := by
  obtain ⟨-, -, -, -, -, -, -, f4, f4', -⟩ := idx_facts t
  funext y
  show A (((cfg0.win 4).blk t).view.emb y) = A y
  refine congrArg A (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem whole_read5 (t : Fin cfg0.N) (A : S128.Idx → EReal) : ((cfg0.win 5).blk t).view.read (Elt Ideal) A = A := by
  obtain ⟨-, -, -, -, -, -, -, -, -, f5, -⟩ := idx_facts t
  funext y
  show A (((cfg0.win 5).blk t).view.emb y) = A y
  refine congrArg A (funext fun a => Fin.ext ?_)
  match a with
  | ⟨0, _⟩ => show win0_5.index t (0 : Fin 1) * 128 + 1 * (y 0).val = (y 0).val; omega

theorem whole_read6 (t : Fin cfg0.N) (A : S256.Idx → EReal) : ((cfg0.win 6).blk t).view.read (Elt Ideal) A = A := by
  obtain ⟨-, -, -, -, -, -, -, -, -, -, f6, -⟩ := idx_facts t
  funext y
  show A (((cfg0.win 6).blk t).view.emb y) = A y
  refine congrArg A (funext fun a => Fin.ext ?_)
  match a with
  | ⟨0, _⟩ => show win0_6.index t (0 : Fin 1) * 256 + 1 * (y 0).val = (y 0).val; omega

theorem whole_read7 (t : Fin cfg0.N) (A : S256.Idx → EReal) : ((cfg0.win 7).blk t).view.read (Elt Ideal) A = A := by
  obtain ⟨-, -, -, -, -, -, -, -, -, -, -, f7, -⟩ := idx_facts t
  funext y
  show A (((cfg0.win 7).blk t).view.emb y) = A y
  refine congrArg A (funext fun a => Fin.ext ?_)
  match a with
  | ⟨0, _⟩ => show win0_7.index t (0 : Fin 1) * 256 + 1 * (y 0).val = (y 0).val; omega

/-- ONE POINT, over arbitrary arrays: what the body leaves from the eight windows' blocks at point `t` is block `t` of
    the layer of those arrays. It holds of any eight arrays of these shapes. -/
theorem point_eq (t : Fin cfg0.N) (A0 A1 : S50000x128.Idx → EReal) (A2 : S128x128.Idx → EReal) (A3 : S128.Idx → EReal)
    (A4 : S128x128.Idx → EReal) (A5 : S128.Idx → EReal) (A6 A7 : S256.Idx → EReal) (j : S2000x256.Idx) :
    out0_8 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) (((cfg0.win 7).blk t).view.read (Elt Ideal) A7) j
      = ((cfg0.win 8).blk t).view.read (Elt Ideal) (G A0 A1 A2 A4 A3 A5 A6 A7) j := by
  obtain ⟨p, q, rfl⟩ : ∃ (p : Fin 2000) (q : Fin 256), j = ix2 p q := ⟨j 0, j 1, eq_ix2 j⟩
  refine (out_apply _ _ _ _ _ _ _ _ p q).trans ?_
  rw [rows_read0 t A0 p, rows_read1 t A1 p, whole_read2 t A2, whole_read3 t A3, whole_read4 t A4, whole_read5 t A5,
    whole_read6 t A6, whole_read7 t A7]
  show _ = G A0 A1 A2 A4 A3 A5 A6 A7 (((cfg0.win 8).blk t).view.emb (ix2 p q))
  obtain ⟨-, -, -, -, -, -, -, -, -, -, -, -, f8', f8⟩ := idx_facts t
  have hq := q.isLt
  have hemb : ((cfg0.win 8).blk t).view.emb (ix2 p q)
      = ix2 (⟨win0_8.index t (0 : Fin 2) * 2000 + p.val, row_lt t p⟩ : Fin 50000) q := by
    funext a; apply Fin.ext
    match a with
    | ⟨0, _⟩ => show win0_8.index t (0 : Fin 2) * 2000 + 1 * p.val = win0_8.index t (0 : Fin 2) * 2000 + p.val; omega
    | ⟨1, _⟩ => show win0_8.index t (1 : Fin 2) * 256 + 1 * q.val = q.val; omega
  rw [hemb, G_apply]

/-- WHAT POINT `t` WRITES BACK is block `t` of the layer of the arrays as the region finds them: the point's
    equation at those eight arrays. -/
theorem flushed_eq (c : Dev nD) (t : Fin cfg0.N) :
    (dats m 0 c).flushed 8 t = ((cfg0.win 8).blk t).view.read (Elt Ideal) (GV m c) := by
  rw [flushed8]
  unfold iblk
  funext j
  exact point_eq t (V m c main_arg0) (V m c main_v12) (V m c main_v13) (V m c main_arg5) (V m c main_v14)
    (V m c main_arg7) (V m c main_arg8) (V m c main_arg9) j

/-- An index of the result array is in point `t`'s block iff each coordinate is in the block's range on its axis. -/
theorem mem_blk (t : Fin cfg0.N) (i : S50000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v15).slice (win0_8.rect t)).set ↔ _
  rw [View.set_slice_whole, Rect.mem_set_unit]
  exact Iff.rfl

/-- The 25 row blocks cover the result array: row `r` is in the block of the point whose index is `r / 2000`. -/
theorem cover (i : S50000x256.Idx) :
    ∃ t : Fin cfg0.N, (cfg0.win 8).flush t = true ∧ i ∈ ((cfg0.win 8).blk t).view.set := by
  have hi0 : (i 0).val < 50000 := (i 0).isLt
  have hi1 : (i 1).val < 256 := (i 1).isLt
  obtain ⟨t, ht⟩ := idx_onto ⟨(i 0).val / 2000, by omega⟩
  have q0 : win0_8.index t (0 : Fin 2) = (i 0).val / 2000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 256 ≤ (i 1).val ∧ (i 1).val < win0_8.index t (1 : Fin 2) * 256 + 256; omega

/-- THE RESULT ARRAY after the run is the layer of the arrays as the region finds them. -/
theorem final (c : Dev nD) : (dats m 0 c).arrAt 8 cfg0.N = GV m c :=
  (dats m 0 c).arrAt_eq_of_cover 8 (GV m c) (fun t _ => flushed_eq m c t) cover

end Cert.KernelIdeal.RowValue

end
-- ==== Proof.HostPrefix.lean ====
/-
  What the kernel's region finds in the three arrays that host operations wrote before it.

  Before the fused region the program aggregates the neighbours (gather the source rows, scale each by its edge
  value, add into the destination rows from zero) and transposes the two weight matrices. These are, operation for
  operation, the reference program's own first stages applied to the same arguments, so each array is stated as that
  stage of the arguments: the aggregation itself is never opened.
-/
import proofs.«176341_j81131932221713_1_alg».proof.Proof.Gen.KernelIdeal.Frame
import proofs.«176341_j81131932221713_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The aggregated-neighbour array at region entry is the reference's aggregation stage of the four arguments
    it reads (features, destination rows, source rows, edge values). -/
theorem supp_eq (c : Dev nD) :
    (V m c main_v12 : S50000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [V, hostOps0]
  after_results
  rfl

/-- The self weights at region entry are the reference's transposed self weights. -/
theorem wself_eq (c : Dev nD) :
    (V m c main_v13 : S128x128.Idx → EReal)
      = Cert.ReferenceIdeal.Read.val_main_v13 (F := Ideal) (m ((c : Thread nD τ).loc main_arg4)) := by
  dsimp only [V, hostOps0]
  after_results
  rfl

/-- The neighbour weights at region entry are the reference's transposed neighbour weights. -/
theorem wneigh_eq (c : Dev nD) :
    (V m c main_v14 : S128x128.Idx → EReal)
      = Cert.ReferenceIdeal.Read.val_main_v18 (F := Ideal) (m ((c : Thread nD τ).loc main_arg6)) := by
  dsimp only [V, hostOps0]
  after_results
  rfl

end Cert.KernelIdeal.HostPrefix

end
-- ==== Proof.KernelValue.lean ====
/-
  The kernel's result array as a function of the argument arrays.

  After the run the result array is the layer of the arrays as the region finds them. The features, the two bias
  vectors, the gain and the shift are found as launched; the aggregated neighbours and the two transposed weight
  matrices are found as the host operations before the region left them, which are the reference's own first stages
  of the arguments. So the result is the layer of the features, of the aggregation stage of (features, destination
  rows, source rows, edge values), of the transposes of the two weight matrices, and of the four small vectors.
-/
import proofs.«176341_j81131932221713_1_alg».proof.Proof.KernelBlocks
import proofs.«176341_j81131932221713_1_alg».proof.Proof.HostPrefix

noncomputable section

namespace Cert.KernelIdeal.RowValue

open Cert.KernelIdeal Cert.KernelIdeal.Gen Idealize.ShloMosaic Idealize.ShloMosaic.TcCoe Idealize.SL.Sem
open Cert.GraphLayer

variable (m : (ℓ : Loc nD τ sig) → Buf (Elt Ideal) ℓ)

/-- The layer of the argument arrays as launched. -/
abbrev GA (c : Dev nD) : S50000x256.Idx → EReal :=
  G (m ((c : Thread nD τ).loc main_arg0))
    (Cert.ReferenceIdeal.Read.val_main_v12 (F := Ideal) (m ((c : Thread nD τ).loc main_arg0)) (m ((c : Thread nD τ).loc main_arg1))
      (m ((c : Thread nD τ).loc main_arg2)) (m ((c : Thread nD τ).loc main_arg3)))
    (Cert.ReferenceIdeal.Read.val_main_v13 (F := Ideal) (m ((c : Thread nD τ).loc main_arg4)))
    (Cert.ReferenceIdeal.Read.val_main_v18 (F := Ideal) (m ((c : Thread nD τ).loc main_arg6)))
    (m ((c : Thread nD τ).loc main_arg5)) (m ((c : Thread nD τ).loc main_arg7))
    (m ((c : Thread nD τ).loc main_arg8)) (m ((c : Thread nD τ).loc main_arg9))

/-- THE RESULT ARRAY after the run, over the arguments. -/
theorem final_args (c : Dev nD) : (dats m 0 c).arrAt 8 cfg0.N = GA m c := by
  rw [final]
  unfold GV
  rw [V_main_arg0 m c, V_main_arg5 m c, V_main_arg7 m c, V_main_arg8 m c, V_main_arg9 m c,
    HostPrefix.supp_eq m c, HostPrefix.wself_eq m c, HostPrefix.wneigh_eq m c]

end Cert.KernelIdeal.RowValue

end
-- ==== Proof.RefRow.lean ====
/-
  The reference program's result, read at an index, is the row function of the layer.

  Stage by stage: the two products with the transposed weights plus the bias rows are the two parts of a row;
  joined along the columns and floored at zero they are the activated row; the host's sum over the columns, from the
  zero word, is the plain sum of the row; dividing by 256 gives the mean, subtracting it the centred row; the sum of
  its squares over 256 plus ε under the reciprocal square root is the scale; gain and bias are read at the column.
  The aggregated-neighbour array and the two transposed weight matrices enter only as arrays: the result is the
  same function of them whatever they hold.
-/
import proofs.«176341_j81131932221713_1_alg».proof.Proof.Gen.ReferenceIdeal.Read
import proofs.«176341_j81131932221713_1_alg».proof.Proof.RowSpec
import proofs.«176341_j81131932221713_1_alg».proof.Proof.LibIndexRead
import proofs.«176341_j81131932221713_1_alg».proof.Proof.LibConcatRead
import proofs.«176341_j81131932221713_1_alg».proof.Proof.LibPlainDot

noncomputable section

open scoped BigOperators

namespace Cert.ReferenceIdeal.RowValue

open Cert.ReferenceIdeal Cert.ReferenceIdeal.Gen Cert.ReferenceIdeal.Read
open Idealize.ShloMosaic Idealize.ShloMosaic.ValueIdx Cert.GraphLayer

variable (x0 : FVec Ideal S50000x128 .f32) (x1 x2 : IVec S800000 32) (x3 : FVec Ideal S800000 .f32)
  (x4 : FVec Ideal S128x128 .f32) (x5 : FVec Ideal S128 .f32) (x6 : FVec Ideal S128x128 .f32) (x7 : FVec Ideal S128 .f32)
  (x8 x9 : FVec Ideal S256 .f32)

/-- A bias vector laid as one row and spread over all rows reads, at `(r, j)`, the vector at `j`. -/
theorem bias16_apply (r : Fin 50000) (j : Fin 128) : val_main_v16 (F := Ideal) x5 (ix2 r j) = x5 (ix1 j) := by
  unfold val_main_v16 val_main_v15
  rw [RowRead.broadcastInDim_1b_ab_apply _ _ rfl, RowRead.broadcastInDim_b_1b_apply _ _ rfl]

theorem bias21_apply (r : Fin 50000) (j : Fin 128) : val_main_v21 (F := Ideal) x7 (ix2 r j) = x7 (ix1 j) := by
  unfold val_main_v21 val_main_v20
  rw [RowRead.broadcastInDim_1b_ab_apply _ _ rfl, RowRead.broadcastInDim_b_1b_apply _ _ rfl]

/-- The self product plus bias at `(r, j)`. -/
theorem self17_apply (r : Fin 50000) (j : Fin 128) :
    val_main_v17 (F := Ideal) x0 x4 x5 (ix2 r j)
      = (∑ k : Fin 128, x0 (ix2 r k) * val_main_v13 (F := Ideal) x4 (ix2 k j)) + x5 (ix1 j) := by
  rw [val_main_v17_apply, bias16_apply]
  unfold val_main_v14
  rw [PlainDot.dotGeneral_plain dot_S50000x128_S128x128_S50000x128_1_0_0_1_n_n rfl none x0 (val_main_v13 (F := Ideal) x4) r j,
    Ideal.addf_def]

/-- The neighbour product plus bias at `(r, j)`, over the aggregated-neighbour array as its stage. -/
theorem neigh22_apply (r : Fin 50000) (j : Fin 128) :
    val_main_v22 (F := Ideal) x0 x1 x2 x3 x6 x7 (ix2 r j)
      = (∑ k : Fin 128, val_main_v12 (F := Ideal) x0 x1 x2 x3 (ix2 r k) * val_main_v18 (F := Ideal) x6 (ix2 k j)) + x7 (ix1 j) := by
  rw [val_main_v22_apply, bias21_apply]
  unfold val_main_v19
  rw [PlainDot.dotGeneral_plain dot_S50000x128_S128x128_S50000x128_1_0_0_1_n_n rfl none (val_main_v12 (F := Ideal) x0 x1 x2 x3)
    (val_main_v18 (F := Ideal) x6) r j, Ideal.addf_def]

/-- The row the reference normalises, for node `r`. -/
abbrev row (r : Fin 50000) : Fin 256 → EReal :=
  act (fun k => x0 (ix2 r k)) (fun k => val_main_v12 (F := Ideal) x0 x1 x2 x3 (ix2 r k))
    (val_main_v13 (F := Ideal) x4) (val_main_v18 (F := Ideal) x6) x5 x7

/-- The zero the array is floored at is the zero word at every index. -/
theorem floor_apply (i : S50000x256.Idx) : val_main_call0_v0 (F := Ideal) i = zeroW := by
  unfold val_main_call0_v0
  rw [RowRead.broadcastInDim_scalar_apply, val_main_call0_cst_apply, Ideal.ofBits_def]

/-- The joined and floored array at `(r, q)` is the activated row of node `r` at column `q`. -/
theorem act24_apply (r : Fin 50000) (q : Fin 256) :
    val_main_v24 (F := Ideal) x0 x1 x2 x3 x4 x5 x6 x7 (ix2 r q) = row x0 x1 x2 x3 x4 x5 x6 x7 r q := by
  rw [val_main_v24_apply, floor_apply, Ideal.maximumf_def]
  unfold val_main_v23 row act
  by_cases hq : q.val < 128
  · rw [dif_pos hq, LibConcatRead.concat_cols_apply_left _ _ _ r q hq, self17_apply]
    unfold part
    with_reducible rfl
  · rw [dif_neg hq, LibConcatRead.concat_cols_apply_right _ _ _ r q (by omega) (by have := q.isLt; omega), neigh22_apply]
    unfold part
    with_reducible rfl

/-- The column of row lengths reads the word of 256. -/
theorem len27_apply (i : S50000x1.Idx) : val_main_v27 (F := Ideal) i = lenW := by
  unfold val_main_v27
  rw [RowRead.broadcastInDim_scalar_apply, val_main_cst_2_apply, Ideal.ofBits_def]

/-- The host's column sum from the zero word, kept as a column: the plain sum of node `r`'s row. -/
theorem sum26_apply (r : Fin 50000) (u : Fin 1) :
    val_main_v26 (F := Ideal) x0 x1 x2 x3 x4 x5 x6 x7 (ix2 r u) = ∑ q : Fin 256, row x0 x1 x2 x3 x4 x5 x6 x7 r q := by
  unfold val_main_v26
  rw [RowRead.broadcastInDim_a_a1_apply _ _ rfl, val_main_v25_apply, val_main_cst_1_apply, Ideal.ofBits_def,
    Ideal.ofBits_zero_f32, zero_add]
  refine Finset.sum_congr rfl fun q _ => ?_
  have e : idx_main_v25 (ix1 r) q = ix2 r q := funext fun a => by
    match a with
    | ⟨0, _⟩ => rfl
    | ⟨1, _⟩ => rfl
  rw [e, act24_apply]

/-- That sum divided by 256: the mean of node `r`'s row. -/
theorem mean28_apply (r : Fin 50000) (u : Fin 1) :
    val_main_v28 (F := Ideal) x0 x1 x2 x3 x4 x5 x6 x7 (ix2 r u) = mean (row x0 x1 x2 x3 x4 x5 x6 x7 r) := by
  rw [val_main_v28_apply, sum26_apply, len27_apply, Ideal.hostDivf_def]
  unfold mean
  with_reducible rfl

/-- The array less its row means at `(r, q)` is the centred row (its first computation). -/
theorem ctr30_apply (r : Fin 50000) (q : Fin 256) :
    val_main_v30 (F := Ideal) x0 x1 x2 x3 x4 x5 x6 x7 (ix2 r q) = ctr (row x0 x1 x2 x3 x4 x5 x6 x7 r) q := by
  rw [val_main_v30_apply, act24_apply]
  unfold val_main_v29
  rw [RowRead.broadcastInDim_a1_ab_apply _ _ rfl, mean28_apply, Ideal.subf_def]
  unfold ctr
  with_reducible rfl

/-- The same centred row, as the reference computes it a second time for the product with the scale. -/
theorem ctr37_apply (r : Fin 50000) (q : Fin 256) :
    val_main_v37 (F := Ideal) x0 x1 x2 x3 x4 x5 x6 x7 (ix2 r q) = ctr (row x0 x1 x2 x3 x4 x5 x6 x7 r) q := by
  rw [val_main_v37_apply, act24_apply]
  unfold val_main_v36
  rw [RowRead.broadcastInDim_a1_ab_apply _ _ rfl, mean28_apply, Ideal.subf_def]
  unfold ctr
  with_reducible rfl

theorem len34_apply (i : S50000x1.Idx) : val_main_v34 (F := Ideal) i = lenW := by
  unfold val_main_v34
  rw [RowRead.broadcastInDim_scalar_apply, val_main_cst_4_apply, Ideal.ofBits_def]

theorem eps38_apply (i : S50000x1.Idx) : val_main_v38 (F := Ideal) i = epsW := by
  unfold val_main_v38
  rw [RowRead.broadcastInDim_scalar_apply, val_main_cst_5_apply, Ideal.ofBits_def]

/-- The host's column sum of the squared centred array, kept as a column. -/
theorem sq33_apply (r : Fin 50000) (u : Fin 1) :
    val_main_v33 (F := Ideal) x0 x1 x2 x3 x4 x5 x6 x7 (ix2 r u)
      = ∑ q : Fin 256, ctr (row x0 x1 x2 x3 x4 x5 x6 x7 r) q * ctr (row x0 x1 x2 x3 x4 x5 x6 x7 r) q := by
  unfold val_main_v33
  rw [RowRead.broadcastInDim_a_a1_apply _ _ rfl, val_main_v32_apply, val_main_cst_3_apply, Ideal.ofBits_def,
    Ideal.ofBits_zero_f32, zero_add]
  refine Finset.sum_congr rfl fun q _ => ?_
  have e : idx_main_v32 (ix1 r) q = ix2 r q := funext fun a => by
    match a with
    | ⟨0, _⟩ => rfl
    | ⟨1, _⟩ => rfl
  rw [e, val_main_v31_apply, ctr30_apply, Ideal.mulf_def]

/-- The scale of node `r`'s row, kept as a column. -/
theorem scale40_apply (r : Fin 50000) (u : Fin 1) :
    val_main_v40 (F := Ideal) x0 x1 x2 x3 x4 x5 x6 x7 (ix2 r u) = scale (row x0 x1 x2 x3 x4 x5 x6 x7 r) := by
  rw [val_main_v40_apply, val_main_v39_apply, val_main_v35_apply, sq33_apply, len34_apply, eps38_apply,
    Ideal.hostUnary_rsqrt_def, Ideal.addf_def, Ideal.hostDivf_def]
  unfold scale
  with_reducible rfl

/-- A gain or bias vector laid as one row of 256 and spread over all rows reads, at `(r, q)`, the vector at `q`. -/
theorem gain44_apply (r : Fin 50000) (q : Fin 256) : val_main_v44 (F := Ideal) x8 (ix2 r q) = x8 (ix1 q) := by
  unfold val_main_v44 val_main_v43
  rw [RowRead.broadcastInDim_1b_ab_apply _ _ rfl, RowRead.broadcastInDim_b_1b_apply _ _ rfl]

theorem shift47_apply (r : Fin 50000) (q : Fin 256) : val_main_v47 (F := Ideal) x9 (ix2 r q) = x9 (ix1 q) := by
  unfold val_main_v47 val_main_v46
  rw [RowRead.broadcastInDim_1b_ab_apply _ _ rfl, RowRead.broadcastInDim_b_1b_apply _ _ rfl]

/-- The scale spread over the columns reads, at `(r, q)`, the scale of node `r`'s row. -/
theorem scale41_apply (r : Fin 50000) (q : Fin 256) :
    val_main_v41 (F := Ideal) x0 x1 x2 x3 x4 x5 x6 x7 (ix2 r q) = scale (row x0 x1 x2 x3 x4 x5 x6 x7 r) := by
  unfold val_main_v41
  rw [RowRead.broadcastInDim_a1_ab_apply _ _ rfl, scale40_apply]

/-- THE REFERENCE IS THE LAYER: its last stage is `G` of the features, of the aggregated-neighbour stage, of the two
    transposed-weight stages and of the bias, gain and shift vectors. -/
theorem result_eq :
    val_main_v48 (F := Ideal) x0 x1 x2 x3 x4 x5 x6 x7 x8 x9
      = G x0 (val_main_v12 (F := Ideal) x0 x1 x2 x3) (val_main_v13 (F := Ideal) x4) (val_main_v18 (F := Ideal) x6) x5 x7 x8 x9 := by
  funext i
  obtain ⟨r, q, rfl⟩ : ∃ (r : Fin 50000) (q : Fin 256), i = ix2 r q := ⟨i 0, i 1, eq_ix2 i⟩
  rw [G_apply, val_main_v48_apply, val_main_v45_apply, val_main_v42_apply, ctr37_apply, scale41_apply, gain44_apply,
    shift47_apply, Ideal.addf_def, Ideal.mulf_def, Ideal.mulf_def]
  unfold rowOut
  with_reducible rfl

end Cert.ReferenceIdeal.RowValue

end
-- ==== Proof.lean ====
/-
  A graph layer with layer normalisation: the fused kernel against its array-level reference, on the extended reals.

  Both programs first aggregate the neighbours on the host (gather the source rows of the features, scale each by
  its edge value, add into the destination rows from zero) and transpose the two weight matrices. The kernel then
  treats the 50000 nodes in 25 blocks of 2000 rows: per block two matrix products (features × self weights, aggregated
  neighbours × neighbour weights), each plus its bias row, floored at zero, joined along the columns into 256
  activations per node, and each row normalised — mean subtracted, divided by the root of the mean squared deviation
  plus ε, times the gain, plus the shift. The reference does the same on whole arrays. An output row depends only on
  the same row of the features and of the aggregated neighbours, so both results are ONE function `G` of the
  arguments, index by index (Proof/RowSpec.lean): the kernel's because each block it writes back is a block of `G` and
  the blocks tile the rows (Proof/KernelRow.lean, KernelBlocks.lean, KernelValue.lean), the reference's by reading its
  stages at an index (Proof/RefRow.lean). No law of arithmetic beyond the definitions is used — the two sides compute
  the same expression in the same order, a change of float format being the identity on the extended reals — so the
  finiteness of the inputs is never needed. The aggregation itself is never opened: both sides apply the same
  operations to the same arguments (Proof/HostPrefix.lean).
-/
import proofs.«176341_j81131932221713_1_alg».proof.Defs
import proofs.«176341_j81131932221713_1_alg».proof.Proof.Gen.Kernel
import proofs.«176341_j81131932221713_1_alg».proof.Proof.Gen.Kernel.Skeleton
import proofs.«176341_j81131932221713_1_alg».proof.Proof.Gen.Kernel.Launch
import proofs.«176341_j81131932221713_1_alg».proof.Proof.Gen.Kernel.Points
import proofs.«176341_j81131932221713_1_alg».proof.Proof.Gen.Kernel.Frame
import proofs.«176341_j81131932221713_1_alg».proof.Proof.Gen.KernelIdeal
import proofs.«176341_j81131932221713_1_alg».proof.Proof.Gen.KernelIdeal.Skeleton
import proofs.«176341_j81131932221713_1_alg».proof.Proof.Gen.KernelIdeal.Launch
import proofs.«176341_j81131932221713_1_alg».proof.Proof.Gen.KernelIdeal.Points
import proofs.«176341_j81131932221713_1_alg».proof.Proof.Gen.KernelIdeal.Frame
import proofs.«176341_j81131932221713_1_alg».proof.Proof.Gen.ReferenceIdeal
import proofs.«176341_j81131932221713_1_alg».proof.Proof.Gen.Pre_finite_inputs
import proofs.«176341_j81131932221713_1_alg».proof.Proof.Gen.KernelIdeal.Value
import proofs.«176341_j81131932221713_1_alg».proof.Proof.Gen.ReferenceIdeal.Run
import proofs.«176341_j81131932221713_1_alg».proof.Proof.Gen.ReferenceIdeal.Read
import proofs.«176341_j81131932221713_1_alg».proof.Proof.KernelValue
import proofs.«176341_j81131932221713_1_alg».proof.Proof.RefRow
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the layer `G` of the arguments in their result
    arrays: the kernel's blocks tile it, the reference's last stage is it. -/
theorem algebraic : Cert.algebraic_KernelIdeal_ReferenceIdeal := by
  intro m ρ m' ρ' _ hagree
  refine ⟨fun c => Cert.KernelIdeal.RowValue.GA m c, ?_, ?_⟩
  · exact (θ_run Cert.KernelIdeal.defs _ _).mono
      (fun r h c => ⟨(h c).1.trans (Cert.KernelIdeal.RowValue.final_args m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v48_eq, Cert.ReferenceIdeal.RowValue.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
